-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S29952x128 : Shape := ⟨2, ![29952, 128]⟩

abbrev nBuf : Space → Nat
  | .hbm => 3
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S100000x128, .f32⟩
  | .local _ .vmem, ⟨0, _⟩ => ⟨S29952x128, .f32⟩
  | .local _ .vmem, ⟨1, _⟩ => ⟨S29952x128, .f32⟩
  | .local _ .vmem, ⟨2, _⟩ => ⟨S128x128, .f32⟩
  | .local _ .vmem, ⟨3, _⟩ => ⟨S29952x128, .f32⟩
  | .local _ .vmem, ⟨4, _⟩ => ⟨S29952x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S29952x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S29952x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S29952x128_S29952x128_0_0 : ∀ a, (![0, 0] : Fin 2 → Nat) a + S29952x128.size a ≤ S29952x128.size a
  h_S29952x128 : 0 < S29952x128.numel
  inb_S128x128_S128x128_0_0 : ∀ a, (![0, 0] : Fin 2 → Nat) a + S128x128.size a ≤ S128x128.size a
  h_S128x128 : 0 < S128x128.numel
  dot_S29952x128_S128x128_S29952x128_1_1_0_0_n_n_wf : DotDims.WF S29952x128 S128x128 S29952x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S29952x128.size a < S100000x128.size a
  hwx0_0 : ∀ i : grid0.Coords, EltTy.bits .f32 = 32 ∨ (Rect.unit (s := S100000x128) (fun a => cc0_transform_0 i a * S29952x128.size a) (fun a => (Pipeline.Clip.of (cc0_transform_0 i a) (S29952x128.size a) (S100000x128.size a)).extent (S29952x128.size a)) fun a => Pipeline.Clip.inb (Pipeline.Clip.ok_of (hstart0_0 i a))).WholeWords (EltTy.packing .f32)
  hwxs0_0 : ∀ i : grid0.Coords, EltTy.bits .f32 = 32 ∨ (Rect.unit (s := S29952x128) (fun _ => 0) (fun a => (Pipeline.Clip.of (cc0_transform_0 i a) (S29952x128.size a) (S100000x128.size a)).extent (S29952x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S29952x128.size a < S100000x128.size a
  hwx0_2 : ∀ i : grid0.Coords, EltTy.bits .f32 = 32 ∨ (Rect.unit (s := S100000x128) (fun a => cc0_transform_2 i a * S29952x128.size a) (fun a => (Pipeline.Clip.of (cc0_transform_2 i a) (S29952x128.size a) (S100000x128.size a)).extent (S29952x128.size a)) fun a => Pipeline.Clip.inb (Pipeline.Clip.ok_of (hstart0_2 i a))).WholeWords (EltTy.packing .f32)
  hwxs0_2 : ∀ i : grid0.Coords, EltTy.bits .f32 = 32 ∨ (Rect.unit (s := S29952x128) (fun _ => 0) (fun a => (Pipeline.Clip.of (cc0_transform_2 i a) (S29952x128.size a) (S100000x128.size a)).extent (S29952x128.size a)) fun a => (Nat.zero_add _).trans_le (Pipeline.Clip.extent_le (Pipeline.Clip.ok_of (hstart0_2 i a)))).WholeWords (EltTy.packing .f32)

variable [Facts₀]

def dot_S29952x128_S128x128_S29952x128_1_1_0_0_n_n : DotDims S29952x128 S128x128 S29952x128 where
  lhsContracting := [1]
  rhsContracting := [1]
  lhsNonContracting := [0]
  rhsNonContracting := [0]
  lhsBatch := []
  rhsBatch := []
  wf := dot_S29952x128_S128x128_S29952x128_1_1_0_0_n_n_wf

abbrev win0_0 : Pipeline.Window sig grid0 :=
  Pipeline.Window.ofSpecClip (Memref.whole main_arg0) S29952x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S29952x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩

abbrev nBuf : Space → Nat
  | .hbm => 4
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x128_S128x128_1_0 : S128x128.Transposes [1, 0] S128x128
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.WordTile.lean ====
/-
  One tile of the product. The grid has four points; point `t` stages rows `29952·t ‥ 29952·t + 29951` of `x`
  (the last tile reaches past row 99999: only its first 10144 rows are rows of `x`, the rest of the staging
  buffer holds words nothing names), the whole of `W`, and writes back the same rows of the result. The body is
  one product: it reads the `x` tile and `W`, and stores `tile · Wᵀ` over the whole result buffer.

  Stated here, for any float instance: what the body does to the three buffers (`body_triple`); the proof data of
  the launch — after the body the `x` buffer still holds its rows of `x` (filled out with zero words past the
  array's end, where nothing is claimed), the `W` buffer holds `W`, the result buffer the product of the two —;
  the per-point obligation in two forms: one that names nothing of the result buffer, which is all the frame needs,
  and one that names it, which holds for an instance whose product computes each row from that row alone
  (`RowsAlone`: the rows past the array's end then cannot influence the rows written back).
-/
import proofs.«164844_g87866440942142_cont_sun_m_626_38_alg».proof.Proof.Gen.Kernel.Frame
import proofs.«164844_g87866440942142_cont_sun_m_626_38_alg».proof.Proof.Gen.Kernel.Skeleton
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on any three whole buffers -/

/-- With the `x` buffer holding `X`, the `W` buffer holding `Wt` and the result buffer holding anything, the body
    runs without fault and ends with the first two unchanged and the result buffer holding the product
    `k0_pay1 X Wt` (rows of `X` against rows of `Wt`, added to zero): two whole loads, a load of the result buffer
    whose value is not used, and one store over the whole result buffer. -/
theorem body_triple (c : Dev nD) (E : Set ℕ) (i : grid0.Coords)
    (a1 : Memref sig .tc .vmem S29952x128 .f32) (h1 : a1.IsWhole)
    (a2 : Memref sig .tc .vmem S128x128 .f32) (h2 : a2.IsWhole)
    (a3 : Memref sig .tc .vmem S29952x128 .f32) (h3 : a3.IsWhole)
    (X : Vec F S29952x128 .f32) (Wt : Vec F S128x128 .f32) (K : PUnit → sProp 𝕄) :
    iprop(owns (c : Thread nD τ) a1 fullShare X ∗ owns (c : Thread nD τ) a2 fullShare Wt ∗ (∃ d, owns (c : Thread nD τ) a3 fullShare d)
        ∗ (iprop(owns (c : Thread nD τ) a1 fullShare X ∗ owns (c : Thread nD τ) a2 fullShare Wt
              ∗ owns (c : Thread nD τ) a3 fullShare (k0_pay1 X Wt)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer (offsets zero, the buffer's own sizes), so the buffer reads back the payload;
  -- the two loads through the same kind of rectangle read the buffers' contents
  have hz : (![0, 0] : Fin 2 → Nat) = fun _ => 0 := funext fun a => by fin_cases a <;> rfl
  rw [View.read_writes_eq_canon _ _ _ (fun y => ⟨_, List.mem_singleton.mpr rfl, by
        rw [Rect.mem_set_unit]; intro a; rw [hz]; exact ⟨Nat.zero_le _, by simpa using (y a).isLt⟩⟩),
    View.canon_unit_zero hz]
  simp only [View.readAt_eq_ld, View.ld_unit_zero (S := S29952x128) hz, View.ld_unit_zero (S := S128x128) hz]

variable (m : (ℓ : Loc nD τ sig) → Buf (Elt F) ℓ) (ρ : Dev nD → PrngReg)

/-! ## The proof data -/

/-- The `x` tile of point `t` as a full 29952 × 128 buffer: the rows of `x` the tile has, and zero words in the
    rows past the array's end (only the last tile has any). -/
def xtile (c : Dev nD) (t : Fin cfg0.N) : S29952x128.Idx → Elt F .f32 :=
  win0_0.fill (grid0.coords t) (fun _ => Scalar.ofBits .f32 0#32) (iblk m c 0 t)

/-- On device `c`: the arrays as launched; after the body at point `t` the `x` buffer at `xtile`, the `W` buffer at
    `W`, the result buffer at their product; nothing else kept between points. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => k0_pay1 (xtile m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = xtile m c t := by dsimp only [dats]
theorem after_w (c : Dev nD) (t : Fin cfg0.N) : (dats m 0 c).after 1 t = iblk m c 1 t := by dsimp only [dats]
theorem after_o (c : Dev nD) (t : Fin cfg0.N) :
    (dats m 0 c).after 2 t = k0_pay1 (xtile m c t) (iblk m c 1 t) := by dsimp only [dats]

/-- `x`'s window is fetched at every point: its buffer holds the tile's rows of `x`, and in the rows past the
    array's end whatever was there (`d`). -/
theorem before_x (c : Dev nD) (t : Fin cfg0.N) (d) :
    (dats m 0 c).before 0 t d = win0_0.fill (grid0.coords t) d (iblk m c 0 t) := by
  unfold Dat.before; rw [if_pos (fetch0_0 t)]; rfl

/-- `W`'s window is fetched once and never written: its buffer holds `W` at every point. -/
theorem before_w (c : Dev nD) (t : Fin cfg0.N) (d) : (dats m 0 c).before 1 t d = iblk m c 1 t :=
  before0_1_of m (dats m 0 c) (A_eq m c 1) (after_w m c) t d

/-- The result's window is written back at every point: its buffer holds nothing named when the body starts. -/
theorem before_o (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The obligation that names nothing of the result buffer -/

/-- The windows whose buffers the frame leaves unnamed: the result's. -/
def unnamed : Fin 3 → Bool := fun w => w.val == 2

theorem obligation_unnamed (c : Dev nD) :
    BodyObligationLoose (dats (F := F) m 0 c) (defs₀ (F := F)) Variants.none () Set.univ unnamed := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ X, owns (c : Thread nD τ) (st0_2 t) fullShare X))
    ⊢ wp frame (wpE (defs₀ (F := F)) Variants.none c none) Set.univ (bodyAt0 t) fun _ =>
      iprop((dats m 0 c).Φ t.succ ∗ (dats m 0 c).owesAt () t.succ
        ∗ (∃ d, owns (c : Thread nD τ) (st0_0 t) fullShare
              (win0_0.fill (grid0.coords t) d (win0_0.cut (grid0.coords t) ((dats m 0 c).after 0 t))))
        ∗ owns (c : Thread nD τ) (st0_1 t) fullShare ((dats m 0 c).after 1 t)
        ∗ (∃ X, owns (c : Thread nD τ) (st0_2 t) fullShare X))
  simp only [before_x, before_w]
  rw [show (dats m 0 c).Φ t.succ = (dats m 0 c).Φ t.castSucc from rfl,
    show (dats m 0 c).owesAt () t.succ = (dats m 0 c).owesAt () t.castSucc from rfl,
    after_x, after_w]
  iintro ⟨HΦ, Ho, ⟨%d0, H0⟩, ⟨%d1, H1⟩, ⟨%X2, H2⟩⟩
  iapply (body_triple c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (xtile m c t) = iblk m c 0 t from win0_0.cut_fill _ _ _]
    iexact H0
  isplitl [H1]; · iexact H1
  iexists _; iexact H2

/-! ## The frame, for any float instance -/

set_option backward.isDefEq.respectTransparency.types false in
/-- Every weakly fair execution of @main terminates without fault; each input array of the launch ends as it
    began; of the result array nothing is said here. -/
theorem run_unnamed : θ_run defs (onTc (τ := τ) (main (F := F))) (s₀ m ρ)
    (Pipeline.RDat.FramePost (cfgs 0) (fun c => (dats m 0 c).toRForget unnamed) (V m)) :=
  Pipeline.RDat.θ_run_frame cfgs (0 : Fin 1) launch0 defs₀ Variants.none (fun c => (dats m 0 c).toRForget unnamed) m ρ main
    (hbody := fun c => (obligation_unnamed m c).toRForget)
    (hshare := fun c => ((dats m 0 c).toRForget unnamed).share_full fun _ => rfl)
    (howed := fun _ _ => rfl) (V := V m) (hmain := hmain m Variants.none) (hA := A_eq m) (hΦ := fun _ _ => rfl)

/-- The program runs to the end, faults nowhere, and leaves `x` and `W` as they were: an input array is only ever
    read by the launch. -/
theorem frame_claim : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget unnamed).ArrAt_in 0 rfl _) _) ((h c).1 0)).trans ((A_eq m c 0).trans (V_main_arg0 m c)),
     (Eq.mp (congrFun (((dats m 0 c).toRForget unnamed).ArrAt_in 1 rfl _) _) ((h c).1 1)).trans ((A_eq m c 1).trans (V_main_arg1 m c))⟩)
    (run_unnamed m ρ)

/-! ## The obligation that names the result buffer -/

/-- The instance's product computes the rows of the result inside the array from the same rows of the left
    operand alone: whatever fills the left operand's rows past the array's end, the rows written back agree. -/
def RowsAlone (F : FTy → Type) [FloatOps F] : Prop :=
  ∀ (i : grid0.Coords) (d d' : S29952x128.Idx → Elt F .f32) (g : (win0_0.xblock i).Idx → Elt F .f32) (Wt : Vec F S128x128 .f32),
    win0_2.cut i (k0_pay1 (win0_0.fill i d g) Wt) = win0_2.cut i (k0_pay1 (win0_0.fill i d' g) Wt)

theorem obligation (hrows : RowsAlone F) (c : Dev nD) :
    BodyObligationLoose (dats (F := F) m 0 c) (defs₀ (F := F)) Variants.none () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) fun _ =>
      iprop((dats m 0 c).Φ t.succ ∗ (dats m 0 c).owesAt () t.succ
        ∗ (∃ d, owns (c : Thread nD τ) (st0_0 t) fullShare
              (win0_0.fill (grid0.coords t) d (win0_0.cut (grid0.coords t) ((dats m 0 c).after 0 t))))
        ∗ owns (c : Thread nD τ) (st0_1 t) fullShare ((dats m 0 c).after 1 t)
        ∗ (∃ d, owns (c : Thread nD τ) (st0_2 t) fullShare
              (win0_2.fill (grid0.coords t) d (win0_2.cut (grid0.coords t) ((dats m 0 c).after 2 t)))))
  simp only [before_x, before_w, before_o]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (body_triple c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (xtile m c t) = iblk m c 0 t from win0_0.cut_fill _ _ _]
    iexact H0
  isplitl [H1]; · iexact H1
  -- the buffer holds the product of the tile as fetched; on the rows written back that is the product of `xtile`
  iexists k0_pay1 (win0_0.fill (grid0.coords t) d0 (iblk m c 0 t)) (iblk m c 1 t)
  have hcut : win0_2.cut (grid0.coords t) (k0_pay1 (win0_0.fill (grid0.coords t) d0 (iblk m c 0 t)) (iblk m c 1 t))
      = win0_2.cut (grid0.coords t) (k0_pay1 (xtile m c t) (iblk m c 1 t)) :=
    hrows (grid0.coords t) d0 (fun _ => Scalar.ofBits .f32 0#32) (iblk m c 0 t) (iblk m c 1 t)
  rw [win0_2.fill_congr_cut (grid0.coords t) hcut]
  iexact H2

set_option backward.isDefEq.respectTransparency.types false in
/-- The same run with every array of the launch named afterwards: the inputs as they began, the result array at
    what the four write-backs leave. -/
theorem run (hrows : RowsAlone F) : θ_run defs (onTc (τ := τ) (main (F := F))) (s₀ m ρ)
    (Pipeline.FramePost cfgs (dats m) 0 (V m)) :=
  Pipeline.θ_run_frame cfgs (dats m) (0 : Fin 1) launch0 defs₀ Variants.none m ρ main
    (hbody := obligation m hrows)
    (hshare := fun c => (dats m 0 c).share_full fun _ => rfl)
    (howed := fun _ _ => rfl) (V := V m) (hmain := hmain m Variants.none) (hA := A_eq m) (hΦ := fun _ _ => rfl)

end Cert.Kernel.Tile

end
-- ==== Proof.IdealTile.lean ====
/-
  One tile of the product. The grid has four points; point `t` stages rows `29952·t ‥ 29952·t + 29951` of `x`
  (the last tile reaches past row 99999: only its first 10144 rows are rows of `x`, the rest of the staging
  buffer holds words nothing names), the whole of `W`, and writes back the same rows of the result. The body is
  one product: it reads the `x` tile and `W`, and stores `tile · Wᵀ` over the whole result buffer.

  Stated here, for any float instance: what the body does to the three buffers (`body_triple`); the proof data of
  the launch — after the body the `x` buffer still holds its rows of `x` (filled out with zero words past the
  array's end, where nothing is claimed), the `W` buffer holds `W`, the result buffer the product of the two —;
  the per-point obligation in two forms: one that names nothing of the result buffer, which is all the frame needs,
  and one that names it, which holds for an instance whose product computes each row from that row alone
  (`RowsAlone`: the rows past the array's end then cannot influence the rows written back).
-/
import proofs.«164844_g87866440942142_cont_sun_m_626_38_alg».proof.Proof.Gen.KernelIdeal.Frame
import proofs.«164844_g87866440942142_cont_sun_m_626_38_alg».proof.Proof.Gen.KernelIdeal.Skeleton
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on any three whole buffers -/

/-- With the `x` buffer holding `X`, the `W` buffer holding `Wt` and the result buffer holding anything, the body
    runs without fault and ends with the first two unchanged and the result buffer holding the product
    `k0_pay1 X Wt` (rows of `X` against rows of `Wt`, added to zero): two whole loads, a load of the result buffer
    whose value is not used, and one store over the whole result buffer. -/
theorem body_triple (c : Dev nD) (E : Set ℕ) (i : grid0.Coords)
    (a1 : Memref sig .tc .vmem S29952x128 .f32) (h1 : a1.IsWhole)
    (a2 : Memref sig .tc .vmem S128x128 .f32) (h2 : a2.IsWhole)
    (a3 : Memref sig .tc .vmem S29952x128 .f32) (h3 : a3.IsWhole)
    (X : Vec F S29952x128 .f32) (Wt : Vec F S128x128 .f32) (K : PUnit → sProp 𝕄) :
    iprop(owns (c : Thread nD τ) a1 fullShare X ∗ owns (c : Thread nD τ) a2 fullShare Wt ∗ (∃ d, owns (c : Thread nD τ) a3 fullShare d)
        ∗ (iprop(owns (c : Thread nD τ) a1 fullShare X ∗ owns (c : Thread nD τ) a2 fullShare Wt
              ∗ owns (c : Thread nD τ) a3 fullShare (k0_pay1 X Wt)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer (offsets zero, the buffer's own sizes), so the buffer reads back the payload;
  -- the two loads through the same kind of rectangle read the buffers' contents
  have hz : (![0, 0] : Fin 2 → Nat) = fun _ => 0 := funext fun a => by fin_cases a <;> rfl
  rw [View.read_writes_eq_canon _ _ _ (fun y => ⟨_, List.mem_singleton.mpr rfl, by
        rw [Rect.mem_set_unit]; intro a; rw [hz]; exact ⟨Nat.zero_le _, by simpa using (y a).isLt⟩⟩),
    View.canon_unit_zero hz]
  simp only [View.readAt_eq_ld, View.ld_unit_zero (S := S29952x128) hz, View.ld_unit_zero (S := S128x128) hz]

variable (m : (ℓ : Loc nD τ sig) → Buf (Elt F) ℓ) (ρ : Dev nD → PrngReg)

/-! ## The proof data -/

/-- The `x` tile of point `t` as a full 29952 × 128 buffer: the rows of `x` the tile has, and zero words in the
    rows past the array's end (only the last tile has any). -/
def xtile (c : Dev nD) (t : Fin cfg0.N) : S29952x128.Idx → Elt F .f32 :=
  win0_0.fill (grid0.coords t) (fun _ => Scalar.ofBits .f32 0#32) (iblk m c 0 t)

/-- On device `c`: the arrays as launched; after the body at point `t` the `x` buffer at `xtile`, the `W` buffer at
    `W`, the result buffer at their product; nothing else kept between points. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => k0_pay1 (xtile m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = xtile m c t := by dsimp only [dats]
theorem after_w (c : Dev nD) (t : Fin cfg0.N) : (dats m 0 c).after 1 t = iblk m c 1 t := by dsimp only [dats]
theorem after_o (c : Dev nD) (t : Fin cfg0.N) :
    (dats m 0 c).after 2 t = k0_pay1 (xtile m c t) (iblk m c 1 t) := by dsimp only [dats]

/-- `x`'s window is fetched at every point: its buffer holds the tile's rows of `x`, and in the rows past the
    array's end whatever was there (`d`). -/
theorem before_x (c : Dev nD) (t : Fin cfg0.N) (d) :
    (dats m 0 c).before 0 t d = win0_0.fill (grid0.coords t) d (iblk m c 0 t) := by
  unfold Dat.before; rw [if_pos (fetch0_0 t)]; rfl

/-- `W`'s window is fetched once and never written: its buffer holds `W` at every point. -/
theorem before_w (c : Dev nD) (t : Fin cfg0.N) (d) : (dats m 0 c).before 1 t d = iblk m c 1 t :=
  before0_1_of m (dats m 0 c) (A_eq m c 1) (after_w m c) t d

/-- The result's window is written back at every point: its buffer holds nothing named when the body starts. -/
theorem before_o (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The obligation that names nothing of the result buffer -/

/-- The windows whose buffers the frame leaves unnamed: the result's. -/
def unnamed : Fin 3 → Bool := fun w => w.val == 2

theorem obligation_unnamed (c : Dev nD) :
    BodyObligationLoose (dats (F := F) m 0 c) (defs₀ (F := F)) Variants.none () Set.univ unnamed := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ X, owns (c : Thread nD τ) (st0_2 t) fullShare X))
    ⊢ wp frame (wpE (defs₀ (F := F)) Variants.none c none) Set.univ (bodyAt0 t) fun _ =>
      iprop((dats m 0 c).Φ t.succ ∗ (dats m 0 c).owesAt () t.succ
        ∗ (∃ d, owns (c : Thread nD τ) (st0_0 t) fullShare
              (win0_0.fill (grid0.coords t) d (win0_0.cut (grid0.coords t) ((dats m 0 c).after 0 t))))
        ∗ owns (c : Thread nD τ) (st0_1 t) fullShare ((dats m 0 c).after 1 t)
        ∗ (∃ X, owns (c : Thread nD τ) (st0_2 t) fullShare X))
  simp only [before_x, before_w]
  rw [show (dats m 0 c).Φ t.succ = (dats m 0 c).Φ t.castSucc from rfl,
    show (dats m 0 c).owesAt () t.succ = (dats m 0 c).owesAt () t.castSucc from rfl,
    after_x, after_w]
  iintro ⟨HΦ, Ho, ⟨%d0, H0⟩, ⟨%d1, H1⟩, ⟨%X2, H2⟩⟩
  iapply (body_triple c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (xtile m c t) = iblk m c 0 t from win0_0.cut_fill _ _ _]
    iexact H0
  isplitl [H1]; · iexact H1
  iexists _; iexact H2

/-! ## The frame, for any float instance -/

set_option backward.isDefEq.respectTransparency.types false in
/-- Every weakly fair execution of @main terminates without fault; each input array of the launch ends as it
    began; of the result array nothing is said here. -/
theorem run_unnamed : θ_run defs (onTc (τ := τ) (main (F := F))) (s₀ m ρ)
    (Pipeline.RDat.FramePost (cfgs 0) (fun c => (dats m 0 c).toRForget unnamed) (V m)) :=
  Pipeline.RDat.θ_run_frame cfgs (0 : Fin 1) launch0 defs₀ Variants.none (fun c => (dats m 0 c).toRForget unnamed) m ρ main
    (hbody := fun c => (obligation_unnamed m c).toRForget)
    (hshare := fun c => ((dats m 0 c).toRForget unnamed).share_full fun _ => rfl)
    (howed := fun _ _ => rfl) (V := V m) (hmain := hmain m Variants.none) (hA := A_eq m) (hΦ := fun _ _ => rfl)

/-- The program runs to the end, faults nowhere, and leaves `x` and `W` as they were: an input array is only ever
    read by the launch. -/
theorem frame_claim : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget unnamed).ArrAt_in 0 rfl _) _) ((h c).1 0)).trans ((A_eq m c 0).trans (V_main_arg0 m c)),
     (Eq.mp (congrFun (((dats m 0 c).toRForget unnamed).ArrAt_in 1 rfl _) _) ((h c).1 1)).trans ((A_eq m c 1).trans (V_main_arg1 m c))⟩)
    (run_unnamed m ρ)

/-! ## The obligation that names the result buffer -/

/-- The instance's product computes the rows of the result inside the array from the same rows of the left
    operand alone: whatever fills the left operand's rows past the array's end, the rows written back agree. -/
def RowsAlone (F : FTy → Type) [FloatOps F] : Prop :=
  ∀ (i : grid0.Coords) (d d' : S29952x128.Idx → Elt F .f32) (g : (win0_0.xblock i).Idx → Elt F .f32) (Wt : Vec F S128x128 .f32),
    win0_2.cut i (k0_pay1 (win0_0.fill i d g) Wt) = win0_2.cut i (k0_pay1 (win0_0.fill i d' g) Wt)

theorem obligation (hrows : RowsAlone F) (c : Dev nD) :
    BodyObligationLoose (dats (F := F) m 0 c) (defs₀ (F := F)) Variants.none () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) fun _ =>
      iprop((dats m 0 c).Φ t.succ ∗ (dats m 0 c).owesAt () t.succ
        ∗ (∃ d, owns (c : Thread nD τ) (st0_0 t) fullShare
              (win0_0.fill (grid0.coords t) d (win0_0.cut (grid0.coords t) ((dats m 0 c).after 0 t))))
        ∗ owns (c : Thread nD τ) (st0_1 t) fullShare ((dats m 0 c).after 1 t)
        ∗ (∃ d, owns (c : Thread nD τ) (st0_2 t) fullShare
              (win0_2.fill (grid0.coords t) d (win0_2.cut (grid0.coords t) ((dats m 0 c).after 2 t)))))
  simp only [before_x, before_w, before_o]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (body_triple c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (xtile m c t) = iblk m c 0 t from win0_0.cut_fill _ _ _]
    iexact H0
  isplitl [H1]; · iexact H1
  -- the buffer holds the product of the tile as fetched; on the rows written back that is the product of `xtile`
  iexists k0_pay1 (win0_0.fill (grid0.coords t) d0 (iblk m c 0 t)) (iblk m c 1 t)
  have hcut : win0_2.cut (grid0.coords t) (k0_pay1 (win0_0.fill (grid0.coords t) d0 (iblk m c 0 t)) (iblk m c 1 t))
      = win0_2.cut (grid0.coords t) (k0_pay1 (xtile m c t) (iblk m c 1 t)) :=
    hrows (grid0.coords t) d0 (fun _ => Scalar.ofBits .f32 0#32) (iblk m c 0 t) (iblk m c 1 t)
  rw [win0_2.fill_congr_cut (grid0.coords t) hcut]
  iexact H2

set_option backward.isDefEq.respectTransparency.types false in
/-- The same run with every array of the launch named afterwards: the inputs as they began, the result array at
    what the four write-backs leave. -/
theorem run (hrows : RowsAlone F) : θ_run defs (onTc (τ := τ) (main (F := F))) (s₀ m ρ)
    (Pipeline.FramePost cfgs (dats m) 0 (V m)) :=
  Pipeline.θ_run_frame cfgs (dats m) (0 : Fin 1) launch0 defs₀ Variants.none m ρ main
    (hbody := obligation m hrows)
    (hshare := fun c => (dats m 0 c).share_full fun _ => rfl)
    (howed := fun _ _ => rfl) (V := V m) (hmain := hmain m Variants.none) (hA := A_eq m) (hΦ := fun _ _ => rfl)

end Cert.KernelIdeal.Tile

end
-- ==== Proof.IdealRows.lean ====
/-
  The tile's product over the extended reals, entry by entry, and why rows past the array's end do not matter.

  At the ideal instance the body's payload — a 29952 × 128 tile `X` against the 128 × 128 matrix `Wt`, both
  contracted on their second axis, added into zeros — holds at `(p, q)` the sum over `k` of `X (p, k) · Wt (q, k)`:
  row `p` of the result is made of row `p` of `X` only. So two tiles that agree on the rows inside the array
  give results that agree on those rows, whatever fills the others (`rowsAlone`).
-/
import proofs.«164844_g87866440942142_cont_sun_m_626_38_alg».proof.Proof.IdealTile
import Idealize.ShloMosaic.Lib.ValueIdx
import Idealize.ShloMosaic.PureOps.Ideal.Laws

noncomputable section

open scoped BigOperators

namespace Cert.KernelIdeal.Rows

open Cert.KernelIdeal Cert.KernelIdeal.Gen Idealize.ShloMosaic Idealize.ShloMosaic.ValueIdx

/-- The product's dimension numbers: both operands contracted on axis 1, the result's axes the operands' axes 0. -/
abbrev dims : DotDims S29952x128 S128x128 S29952x128 := dot_S29952x128_S128x128_S29952x128_1_1_0_0_n_n

/-- The left operand's row is the result's row … -/
theorem lhs_row (j : S29952x128.Idx) (q : dims.contr.Idx) : (dims.lhsIdx j q 0).val = (j 0).val := by
  unfold DotDims.lhsIdx
  rw [dif_neg (show ¬(0 : Fin S29952x128.rank) ∈ dims.lhsBatch by decide),
    dif_pos (show (0 : Fin S29952x128.rank) ∈ dims.lhsNonContracting by decide)]
  rfl

/-- … its column the contraction index; -/
theorem lhs_col (j : S29952x128.Idx) (q : dims.contr.Idx) : (dims.lhsIdx j q 1).val = (q ⟨0, by decide⟩).val :=
  dims.lhsIdx_val_of_single rfl j q

/-- the right operand's row is the result's column … -/
theorem rhs_row (j : S29952x128.Idx) (q : dims.contr.Idx) : (dims.rhsIdx j q 0).val = (j 1).val := by
  unfold DotDims.rhsIdx
  rw [dif_neg (show ¬(0 : Fin S128x128.rank) ∈ dims.rhsBatch by decide),
    dif_pos (show (0 : Fin S128x128.rank) ∈ dims.rhsNonContracting by decide)]
  rfl

/-- … and its column the contraction index too. -/
theorem rhs_col (j : S29952x128.Idx) (q : dims.contr.Idx) : (dims.rhsIdx j q 1).val = (q ⟨0, by decide⟩).val :=
  dims.rhsIdx_val_of_single rfl j q

/-- The payload at an entry: the sum over `k` of the tile's `(row, k)` times the matrix's `(column, k)`. -/
theorem tile_apply (X : Vec Ideal S29952x128 .f32) (Wt : Vec Ideal S128x128 .f32) (j : S29952x128.Idx) :
    k0_pay1 (F := Ideal) X Wt j = ∑ k : Fin 128, X (ix2 (j 0) k) * Wt (ix2 (j 1) k) := by
  unfold k0_pay1
  simp only [matmul]
  rw [Ideal.matmul_constant_zero_apply, ← Equiv.sum_comp (contrEquiv1 dims 128 rfl rfl).symm]
  refine Finset.sum_congr rfl fun k _ => ?_
  have hk := contrEquiv1_symm_val dims 128 rfl rfl k
  have el : dims.lhsIdx j ((contrEquiv1 dims 128 rfl rfl).symm k) = ix2 (j 0) k := funext fun a => Fin.ext (by
    match a with
    | ⟨0, _⟩ => exact lhs_row _ _
    | ⟨1, _⟩ => exact (lhs_col _ _).trans hk)
  have er : dims.rhsIdx j ((contrEquiv1 dims 128 rfl rfl).symm k) = ix2 (j 1) k := funext fun a => Fin.ext (by
    match a with
    | ⟨0, _⟩ => exact rhs_row _ _
    | ⟨1, _⟩ => exact (rhs_col _ _).trans hk)
  rw [el, er]
  rfl

/-- Rows alone: the rows of the product inside the array come from the same rows of the tile, which a fetch
    fills with rows of `x` whatever the buffer held elsewhere. -/
theorem rowsAlone : Tile.RowsAlone Ideal := fun i d d' g Wt => by
  funext y
  show k0_pay1 (F := Ideal) (win0_0.fill i d g) Wt (win0_2.xinj i y) = k0_pay1 (F := Ideal) (win0_0.fill i d' g) Wt (win0_2.xinj i y)
  rw [tile_apply, tile_apply]
  refine Finset.sum_congr rfl fun k _ => ?_
  have hm : win0_0.moved i (ix2 ((win0_2.xinj i y) 0) k) = true := (win0_0.moved_iff i _).mpr fun a => by
    match a with
    | ⟨0, _⟩ => exact (y 0).isLt
    | ⟨1, _⟩ => exact k.isLt
  unfold Pipeline.Window.fill
  rw [dif_pos hm, dif_pos hm]

end Cert.KernelIdeal.Rows

end
-- ==== Proof.Spec.lean ====
/-
  What both programs compute: `y = x · Wᵀ` for `x` of 100000 rows of 128 and `W` of 128 rows of 128,

      y (p, q) = Σ_k x (p, k) · W (q, k),

  stated over the extended reals, entry by entry, free of any program.
-/
import Idealize.ShloMosaic.Lib.ValueIdx
import Idealize.ShloMosaic.PureOps.Ideal

noncomputable section

open scoped BigOperators

namespace Cert.Spec

open Idealize.ShloMosaic Idealize.ShloMosaic.ValueIdx

/-- Row `p` of `x` against row `q` of `W`. -/
def timesTranspose (x : (⟨2, ![100000, 128]⟩ : Shape).Idx → EReal) (W : (⟨2, ![128, 128]⟩ : Shape).Idx → EReal) :
    (⟨2, ![100000, 128]⟩ : Shape).Idx → EReal :=
  fun i => ∑ k : Fin 128, x (ix2 (i 0) k) * W (ix2 (i 1) k)

end Cert.Spec

end
-- ==== Proof.IdealArray.lean ====
/-
  From tiles to the whole result, over the extended reals.

  Point `t` writes back rows `29952·t ‥` of the result — 29952 rows at points 0, 1, 2 and the 10144 rows up to
  row 99999 at point 3 — and what it writes there is those rows of `x · Wᵀ`: an entry of the tile's product
  is the sum over `k` of the tile's `(row, k)`, which is `x (29952·t + row, k)`, times `W (column, k)`. The four
  blocks cover every row (row `r` lies in block `r / 29952`), so after the run the result array is `x · Wᵀ`.
-/
import proofs.«164844_g87866440942142_cont_sun_m_626_38_alg».proof.Proof.IdealRows
import proofs.«164844_g87866440942142_cont_sun_m_626_38_alg».proof.Proof.Spec
import Idealize.ShloMosaic.Lib.Pipeline.Value

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps and cuts, decided over the four points: `x`'s and the result's windows move together,
    block `t` at point `t`, never along the columns; `W`'s window stays; the columns are never cut, the rows only
    at the last point, to 10144. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_2.xsize (grid0.coords t) (1 : Fin 2) = 128
    ∧ (t.val < 3 → win0_2.xsize (grid0.coords t) (0 : Fin 2) = 29952)
    ∧ (t.val = 3 → win0_2.xsize (grid0.coords t) (0 : Fin 2) = 10144) :=
  (by decide +kernel : ∀ t : Fin grid0.N, _)

/-- What point `t` writes back is block `t` of `x · Wᵀ`. -/
theorem flushed_eq (c : Dev nD) (t : Fin cfg0.N) :
    (Tile.dats m 0 c).flushed 2 t
      = ((cfg0.win 2).blk t).view.read (Elt Ideal) (Cert.Spec.timesTranspose (V m c main_arg0) (V m c main_arg1)) := by
  show (cfg0.win 2).cut (grid0.coords t) ((Tile.dats m 0 c).after 2 t) = _
  rw [Tile.after_o]
  obtain ⟨e00, e01, e10, e11, e20, e21, -, -, -⟩ := idx_facts t
  funext y
  show k0_pay1 (F := Ideal) (Tile.xtile m c t) (iblk m c 1 t) (win0_2.xinj (grid0.coords t) y)
    = Cert.Spec.timesTranspose (V m c main_arg0) (V m c main_arg1) (((cfg0.win 2).blk t).view.emb y)
  rw [Rows.tile_apply]
  unfold Cert.Spec.timesTranspose
  refine Finset.sum_congr rfl fun k _ => ?_
  -- the tile's entry: the row is inside the array, so it is the fetched row of `x`, row `29952·t + (y 0)`
  have hm : win0_0.moved (grid0.coords t) (ix2 ((win0_2.xinj (grid0.coords t) y) 0) k) = true :=
    (win0_0.moved_iff (grid0.coords t) _).mpr fun a => by
      match a with
      | ⟨0, _⟩ => exact (y 0).isLt
      | ⟨1, _⟩ => exact k.isLt
  have hx : Tile.xtile m c t (ix2 ((win0_2.xinj (grid0.coords t) y) 0) k)
      = V m c main_arg0 (ix2 ((((cfg0.win 2).blk t).view.emb y) 0) k) := by
    unfold Tile.xtile Pipeline.Window.fill
    rw [dif_pos hm]
    show V m c main_arg0 (((cfg0.win 0).blk t).view.emb _) = V m c main_arg0 _
    refine congrArg _ (funext fun a => Fin.ext ?_)
    match a with
    | ⟨0, _⟩ =>
      show win0_0.index t (0 : Fin 2) * 29952 + 1 * (y 0).val = win0_2.index t (0 : Fin 2) * 29952 + 1 * (y 0).val
      rw [e00, e20]
    | ⟨1, _⟩ =>
      show win0_0.index t (1 : Fin 2) * 128 + 1 * k.val = k.val
      rw [e01]; omega
  -- `W`'s block is all of `W`
  have hw : iblk m c 1 t (ix2 ((win0_2.xinj (grid0.coords t) y) 1) k)
      = V m c main_arg1 (ix2 ((((cfg0.win 2).blk t).view.emb y) 1) k) := by
    show V m c main_arg1 (((cfg0.win 1).blk t).view.emb _) = V m c main_arg1 _
    refine congrArg _ (funext fun a => Fin.ext ?_)
    match a with
    | ⟨0, _⟩ =>
      show win0_1.index t (0 : Fin 2) * 128 + 1 * (y 1).val = win0_2.index t (1 : Fin 2) * 128 + 1 * (y 1).val
      rw [e10, e21]
    | ⟨1, _⟩ =>
      show win0_1.index t (1 : Fin 2) * 128 + 1 * k.val = k.val
      rw [e11]; omega
  rw [hx, hw]

/-- An entry of the result lies in point `t`'s block iff, on each axis, its coordinate is in the block's range
    cut at the array's end. -/
theorem mem_blk (t : Fin cfg0.N) (i : S100000x128.Idx) :
    i ∈ ((cfg0.win 2).blk t).view.set ↔ ∀ a : Fin 2, win0_2.index t a * S29952x128.size a ≤ (i a).val
      ∧ (i a).val < win0_2.index t a * S29952x128.size a + win0_2.xsize (grid0.coords t) a := by
  show i ∈ ((View.whole main_v0).slice (win0_2.rect t)).set ↔ _
  rw [View.set_slice_whole, Rect.mem_set_unit]
  exact Iff.rfl

/-- Every entry is in some point's block: row `r` in block `r / 29952` (rows 89856 ‥ 99999 in the last, cut one). -/
theorem covered (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hN : (i 0).val / 29952 < cfg0.N := by rw [show cfg0.N = 4 from N_0]; omega
  obtain ⟨t, ht⟩ : ∃ t : Fin cfg0.N, t.val = (i 0).val / 29952 := ⟨⟨_, hN⟩, rfl⟩
  refine ⟨t, flush0_2 t, ?_⟩
  rw [mem_blk]
  obtain ⟨-, -, -, -, e20, e21, s1, s0, s3⟩ := idx_facts t
  intro a
  match a with
  | ⟨0, _⟩ =>
    show win0_2.index t (0 : Fin 2) * 29952 ≤ (i 0).val
      ∧ (i 0).val < win0_2.index t (0 : Fin 2) * 29952 + win0_2.xsize (grid0.coords t) (0 : Fin 2)
    rw [e20]
    by_cases h : t.val < 3
    · rw [s0 h]; omega
    · rw [s3 (by omega)]; omega
  | ⟨1, _⟩ =>
    show win0_2.index t (1 : Fin 2) * 128 ≤ (i 1).val
      ∧ (i 1).val < win0_2.index t (1 : Fin 2) * 128 + win0_2.xsize (grid0.coords t) (1 : Fin 2)
    rw [e21, s1]; omega

/-- After the four write-backs the result array is `x · Wᵀ`. -/
theorem final (c : Dev nD) : (Tile.dats m 0 c).arrAt 2 cfg0.N
    = Cert.Spec.timesTranspose (m ((c : Thread nD τ).loc main_arg0)) (m ((c : Thread nD τ).loc main_arg1)) :=
  (Tile.dats m 0 c).arrAt_eq_of_cover 2 _ (fun t _ => flushed_eq m c t) covered

/-- Every weakly fair execution of the idealized kernel terminates without fault with the result at `x · Wᵀ` and
    `x` and `W` as they were. -/
theorem run : θ_run defs (onTc (τ := τ) (main (F := Ideal))) ⟨m, fun _ => 0, ρ⟩ fun r => ∀ c : Dev nD,
      r.2.mem ((c : Thread nD τ).loc main_v0)
        = Cert.Spec.timesTranspose (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 2).trans (final m c),
     ((h c).1 0).trans (((Tile.dats m 0 c).arrAt_in 0 rfl _).trans ((Tile.A_eq m c 0).trans (V_main_arg0 m c))),
     ((h c).1 1).trans (((Tile.dats m 0 c).arrAt_in 1 rfl _).trans ((Tile.A_eq m c 1).trans (V_main_arg1 m c)))⟩)
    (Tile.run m ρ Rows.rowsAlone)

end Cert.KernelIdeal.Whole

end
-- ==== Proof.Reference.lean ====
/-
  The reference is the specification. It transposes `W` and multiplies: at `(p, q)` the host product sums
  `x (p, k) · Wᵀ (k, q)` over `k`, and `Wᵀ (k, q)` is `W (q, k)`.
-/
import proofs.«164844_g87866440942142_cont_sun_m_626_38_alg».proof.Proof.Gen.ReferenceIdeal.Read
import proofs.«164844_g87866440942142_cont_sun_m_626_38_alg».proof.Proof.Spec

noncomputable section

open scoped BigOperators

namespace Cert.ReferenceIdeal.AsSpec

open Cert.ReferenceIdeal Cert.ReferenceIdeal.Read Idealize.ShloMosaic Idealize.ShloMosaic.ValueIdx

theorem result_eq (x : (⟨S100000x128, .f32⟩ : BufTy).Contents (Elt Ideal)) (W : (⟨S128x128, .f32⟩ : BufTy).Contents (Elt Ideal)) :
    val_main_v1 (F := Ideal) x W = Cert.Spec.timesTranspose x W := by
  funext i
  rw [val_main_v1_apply]
  unfold Cert.Spec.timesTranspose
  refine Finset.sum_congr rfl fun k _ => ?_
  rw [val_main_v0_apply]
  have e1 : lidx_main_v1 i k = ix2 (i 0) k := funext fun a => Fin.ext (by
    match a with
    | ⟨0, _⟩ => rfl
    | ⟨1, _⟩ => rfl)
  have e2 : idx_main_v0 (ridx_main_v1 i k) = ix2 (i 1) k := funext fun a => Fin.ext (by
    match a with
    | ⟨0, _⟩ => rfl
    | ⟨1, _⟩ => rfl)
  rw [e1, e2]
  rfl

end Cert.ReferenceIdeal.AsSpec

end
-- ==== Proof.lean ====
/-
  A dense layer `y = x · Wᵀ` (`x` of 100000 rows of 128, `W` of 128 rows of 128) computed tile by tile against the
  plain product.

  The kernel walks four row tiles of 29952 rows; each point multiplies its tile of `x` by `Wᵀ` on the matrix unit
  (both operands contracted on their second axis, accumulated into zeros) and writes the product back over the
  same rows of the result. The last tile reaches past row 99999: its transfers are cut to the 10144 rows that
  exist, and the rows of its staging buffers past the array's end hold nothing anyone names.

  * The frames. The body only loads whole buffers and stores one whole buffer, so it cannot fault, and the launch
    never writes an input array: this holds for any float instance and needs nothing about what the product
    computes, so the result's buffer is left unnamed there (`Tile.frame_claim`, for the word-level and for the
    idealized program alike). The reference is two host operations; its frame is its run with the result dropped.
  * No operation of the kernel was rewritten by the idealization: nothing to preserve.
  * Equality over the extended reals. There an entry `(p, q)` of a tile's product is `Σ_k tile (p, k) · W (q, k)`:
    row `p` comes from row `p` of the tile alone, so the unnamed rows of the last tile never reach a row that is
    written back, and the four blocks written back — rows `29952·t ‥`, together all 100000 — piece
    `Σ_k x (p, k) · W (q, k)` together (`Whole.run`). The reference transposes `W` and takes the host product,
    `Σ_k x (p, k) · Wᵀ (k, q)`: the same sum (`AsSpec.result_eq`). Only a re-indexing of one finite sum joins the
    two sides, so the finiteness of the inputs is never used.
-/
import proofs.«164844_g87866440942142_cont_sun_m_626_38_alg».proof.Defs
import proofs.«164844_g87866440942142_cont_sun_m_626_38_alg».proof.Proof.Gen.Kernel
import proofs.«164844_g87866440942142_cont_sun_m_626_38_alg».proof.Proof.Gen.KernelIdeal
import proofs.«164844_g87866440942142_cont_sun_m_626_38_alg».proof.Proof.Gen.ReferenceIdeal
import proofs.«164844_g87866440942142_cont_sun_m_626_38_alg».proof.Proof.Gen.Pre_finite_inputs
import proofs.«164844_g87866440942142_cont_sun_m_626_38_alg».proof.Proof.WordTile
import proofs.«164844_g87866440942142_cont_sun_m_626_38_alg».proof.Proof.IdealArray
import proofs.«164844_g87866440942142_cont_sun_m_626_38_alg».proof.Proof.Reference

noncomputable section

namespace Cert.Proof

open Idealize.ShloMosaic Idealize.ShloMosaic.TcCoe Idealize.SL.Sem

/-- The word-level kernel runs to the end, faults nowhere, and leaves `x` and `W` as they were. -/
theorem frame_word : Cert.frame_Kernel := fun m ρ _ => Cert.Kernel.Tile.frame_claim (F := Bits) m ρ

/-- So does the idealized kernel. -/
theorem frame_ideal : Cert.frame_KernelIdeal := fun m ρ _ => Cert.KernelIdeal.Tile.frame_claim (F := Ideal) m ρ

/-- The reference's two host operations run, and write neither argument. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with `x · Wᵀ` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.AsSpec.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
